-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_arg4 : FVec F S16x4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096 .f32) (main_arg3 : FVec F S4096x16 .f32) (main_arg4 : FVec F S16x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S8192x4096 : Shape := ⟨2, ![8192, 4096]⟩
abbrev S_ : Shape := ⟨0, ![]⟩
abbrev S1x4096 : Shape := ⟨2, ![1, 4096]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩

abbrev nBuf : Space → Nat
  | .hbm => 16
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S8192x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .bf16⟩
  | .hbm, ⟨12, _⟩ => ⟨S8192x4096, .bf16⟩
  | .hbm, ⟨13, _⟩ => ⟨S1x4096, .f32⟩
  | .hbm, ⟨14, _⟩ => ⟨S8192x4096, .f32⟩
  | .hbm, ⟨15, _⟩ => ⟨S4x2048x4096, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  bcast_S_S4096x4096 : S_.BroadcastsInDim S4096x4096 (![] : Fin 0 → Fin S4096x4096.rank)
  bitsLt_bf16_f32 : FTy.bits .bf16 < FTy.bits .f32
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S4x2048x4096 : S8192x4096.ShapeCasts S4x2048x4096
  dot_S4096x16_S16x4096_S4096x4096_1_0_0_1_n_n_wf : DotDims.WF S4096x16 S16x4096 S4096x4096 [1] [0] [0] [1] [] []
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v6) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S1x1x4096 : Shape := ⟨3, ![1, 1, 4096]⟩
abbrev S4x2048x16 : Shape := ⟨3, ![4, 2048, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | .hbm, ⟨9, _⟩ => ⟨S4x2048x16, .f32⟩
  | .hbm, ⟨10, _⟩ => ⟨S4x2048x4096, .f32⟩
  | .hbm, ⟨11, _⟩ => ⟨S_, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.Pieces.lean ====
/-
  What each control case of the kernel body leaves behind, as values. The body keeps a running block product in a
  scratch accumulator across the last grid axis: at the axis's first step it zeroes the accumulator and adds the
  step's block product; at a middle step it adds the step's block product to what the step before left; at the
  last step it does the same and then stores the accumulator plus the bias row into the output block.
  Each case's covering stores are read back here as the payload terms of the blocks the case loaded.
-/
import proofs.«140714_j74500502717012_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A middle step: the accumulator holding `acc` ends at `acc` plus the block product of the two input blocks. -/
theorem acc_B (c : Dev nD) (i : grid0.Coords) (a3 : Memref sig .tc .vmem S2048x512 .bf16) (h3 : a3.IsWhole)
    (a4 : Memref sig .tc .vmem S1024x512 .bf16) (h4 : a4.IsWhole) (a5 : Memref sig .tc .vmem S1x1024 .f32) (h5 : a5.IsWhole)
    (a6 : Memref sig .tc .vmem S2048x1024 .f32) (h6 : a6.IsWhole) (a7 : Memref sig .tc .vmem S2048x1024 .f32) (h7 : a7.IsWhole)
    (hc0 : ¬cond0_0 i) (hc1 : ¬cond0_1 i)
    (x0 : Vec F S2048x512 .bf16) (x1 : Vec F S1024x512 .bf16) (x2 : Vec F S1x1024 .f32) (acc : Vec F S2048x1024 .f32) :
    sout0_B_0 c i a3 h3 a4 h4 a5 h5 a6 h6 a7 h7 hc0 hc1 x0 x1 x2 acc = k0_pay2 acc x0 x1 := by
  unfold sout0_B_0
  rw [View.read_writes_eq_canon _ _ _ (scover0_B_0 c i a3 h3 a4 h4 a5 h5 a6 h6 a7 h7 hc0 hc1 x0 x1 x2 acc)]
  unfold kernelRun0_B
  dsimp only
  rw [View.canon_unit_zero hz]
  simp only [View.readAt_eq_ld, h3.read_unread, h4.read_unread, h5.read_unread, h7.read_unread,
    View.ld_unit_zero (S := S2048x1024) hz, View.ld_unit_zero (S := S2048x512) hz, View.ld_unit_zero (S := S1024x512) hz,
    View.ld_unit_zero (S := S1x1024) hz]

/-- The first step of a contraction: the accumulator is zeroed, read back, and ends at the zero block plus the block
    product (the read-back of the zero store is the run's own intermediate, a covered load). -/
theorem acc_A (c : Dev nD) (i : grid0.Coords) (a3 : Memref sig .tc .vmem S2048x512 .bf16) (h3 : a3.IsWhole)
    (a4 : Memref sig .tc .vmem S1024x512 .bf16) (h4 : a4.IsWhole) (a5 : Memref sig .tc .vmem S1x1024 .f32) (h5 : a5.IsWhole)
    (a6 : Memref sig .tc .vmem S2048x1024 .f32) (h6 : a6.IsWhole) (a7 : Memref sig .tc .vmem S2048x1024 .f32) (h7 : a7.IsWhole)
    (hc0 : cond0_0 i) (hc1 : ¬cond0_1 i)
    (x0 : Vec F S2048x512 .bf16) (x1 : Vec F S1024x512 .bf16) (x2 : Vec F S1x1024 .f32) :
    sout0_A_0 c i a3 h3 a4 h4 a5 h5 a6 h6 a7 h7 hc0 hc1 x0 x1 x2 = k0_pay2 (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S2048x1024) hz, View.readCov_unit_zero (S := S2048x1024) _ hz]
  simp only [View.readAt_eq_ld, h3.read_unread, h4.read_unread, h5.read_unread, h7.read_unread,
    View.ld_unit_zero (S := S2048x1024) hz, View.ld_unit_zero (S := S2048x512) hz, View.ld_unit_zero (S := S1024x512) hz,
    View.ld_unit_zero (S := S1x1024) hz]

/-- The last step of a contraction leaves the accumulator as a middle step does. -/
theorem acc_C (c : Dev nD) (i : grid0.Coords) (a3 : Memref sig .tc .vmem S2048x512 .bf16) (h3 : a3.IsWhole)
    (a4 : Memref sig .tc .vmem S1024x512 .bf16) (h4 : a4.IsWhole) (a5 : Memref sig .tc .vmem S1x1024 .f32) (h5 : a5.IsWhole)
    (a6 : Memref sig .tc .vmem S2048x1024 .f32) (h6 : a6.IsWhole) (a7 : Memref sig .tc .vmem S2048x1024 .f32) (h7 : a7.IsWhole)
    (hc0 : ¬cond0_0 i) (hc1 : cond0_1 i)
    (x0 : Vec F S2048x512 .bf16) (x1 : Vec F S1024x512 .bf16) (x2 : Vec F S1x1024 .f32) (acc : Vec F S2048x1024 .f32) :
    sout0_C_0 c i a3 h3 a4 h4 a5 h5 a6 h6 a7 h7 hc0 hc1 x0 x1 x2 acc = k0_pay2 acc x0 x1 := by
  unfold sout0_C_0
  rw [View.read_writes_eq_canon _ _ _ (scover0_C_0 c i a3 h3 a4 h4 a5 h5 a6 h6 a7 h7 hc0 hc1 x0 x1 x2 acc)]
  unfold kernelRun0_C
  dsimp only
  sl_unfold_words
  rw [View.canon_unit_zero hz]
  simp only [View.readAt_eq_ld, h3.read_unread, h4.read_unread, h5.read_unread, h7.read_unread,
    View.ld_unit_zero (S := S2048x1024) hz, View.ld_unit_zero (S := S2048x512) hz, View.ld_unit_zero (S := S1024x512) hz,
    View.ld_unit_zero (S := S1x1024) hz]

/-- The last step of a contraction stores, into the output block, the finished accumulator plus the bias row. -/
theorem out_C (c : Dev nD) (i : grid0.Coords) (a3 : Memref sig .tc .vmem S2048x512 .bf16) (h3 : a3.IsWhole)
    (a4 : Memref sig .tc .vmem S1024x512 .bf16) (h4 : a4.IsWhole) (a5 : Memref sig .tc .vmem S1x1024 .f32) (h5 : a5.IsWhole)
    (a6 : Memref sig .tc .vmem S2048x1024 .f32) (h6 : a6.IsWhole) (a7 : Memref sig .tc .vmem S2048x1024 .f32) (h7 : a7.IsWhole)
    (hc0 : ¬cond0_0 i) (hc1 : cond0_1 i)
    (x0 : Vec F S2048x512 .bf16) (x1 : Vec F S1024x512 .bf16) (x2 : Vec F S1x1024 .f32) (acc : Vec F S2048x1024 .f32) :
    out0_C_3 c i a3 h3 a4 h4 a5 h5 a6 h6 a7 h7 hc0 hc1 x0 x1 x2 acc = k0_pay3 (k0_pay2 acc x0 x1) x2 := by
  unfold out0_C_3
  rw [View.read_writes_eq_canon _ _ _ (cover0_C_3 c i a3 h3 a4 h4 a5 h5 a6 h6 a7 h7 hc0 hc1 x0 x1 x2 acc)]
  unfold kernelRun0_C
  dsimp only
  sl_unfold_words
  rw [View.canon_unit_zero hz, View.readCov_unit_zero (S := S2048x1024) _ hz]
  simp only [View.readAt_eq_ld, h3.read_unread, h4.read_unread, h5.read_unread, h7.read_unread,
    View.ld_unit_zero (S := S2048x1024) hz, View.ld_unit_zero (S := S2048x512) hz, View.ld_unit_zero (S := S1024x512) hz,
    View.ld_unit_zero (S := S1x1024) hz]

end Cert.KernelIdeal.Pieces

end
-- ==== Proof.Accum.lean ====
/-
  The accumulator across the grid. Grid points are visited in row-major order of (row block, column block, contraction
  step), so the eight steps of one output block are consecutive points 8g, …, 8g+7. After point `n` the scratch
  accumulator holds the running block product of the contraction that point belongs to: it restarts from the zero
  block at the points ≡ 0 (mod 8) and otherwise adds the point's block product to what the point before left.
  At the points ≡ 7 (mod 8) the output block is that finished sum plus the bias row.
-/
import proofs.«140714_j74500502717012_2_alg».proof.Proof.Pieces

noncomputable section

open Idealize.ShloMosaic Idealize.ShloMosaic.TcCoe Idealize.SL.Sem
open Idealize.ShloMosaic.Pipeline (Dat)

namespace Cert.KernelIdeal.Accum

open Cert.KernelIdeal Cert.KernelIdeal.Gen Cert.KernelIdeal.Pieces

variable {F : FTy → Type} [FloatOps F]
variable (m : (ℓ : Loc nD τ sig) → Buf (Elt F) ℓ)

/-- The accumulator's contents after point `n`: the zero block plus the point's block product where a contraction
    opens, the previous contents plus the point's block product elsewhere. -/
def accAt (c : Dev nD) : (n : ℕ) → n < cfg0.N → Vec F S2048x1024 .f32
  | 0, h => k0_pay2 (k0_pay1 (F := F)) (iblk m c 0 ⟨0, h⟩) (iblk m c 1 ⟨0, h⟩)
  | n + 1, h =>
    if (n + 1) % 8 = 0 then k0_pay2 (k0_pay1 (F := F)) (iblk m c 0 ⟨n + 1, h⟩) (iblk m c 1 ⟨n + 1, h⟩)
    else k0_pay2 (accAt c n (Nat.lt_of_succ_lt h)) (iblk m c 0 ⟨n + 1, h⟩) (iblk m c 1 ⟨n + 1, h⟩)

theorem accAt_open (c : Dev nD) (n : ℕ) (h : n + 1 < cfg0.N) (h0 : (n + 1) % 8 = 0) :
    accAt m c (n + 1) h = k0_pay2 (k0_pay1 (F := F)) (iblk m c 0 ⟨n + 1, h⟩) (iblk m c 1 ⟨n + 1, h⟩) := by
  rw [accAt, if_pos h0]

theorem accAt_step (c : Dev nD) (n : ℕ) (h : n + 1 < cfg0.N) (h0 : ¬(n + 1) % 8 = 0) :
    accAt m c (n + 1) h = k0_pay2 (accAt m c n (Nat.lt_of_succ_lt h)) (iblk m c 0 ⟨n + 1, h⟩) (iblk m c 1 ⟨n + 1, h⟩) := by
  rw [accAt, if_neg h0]

theorem accAt_zero (c : Dev nD) (h : 0 < cfg0.N) :
    accAt m c 0 h = k0_pay2 (k0_pay1 (F := F)) (iblk m c 0 ⟨0, h⟩) (iblk m c 1 ⟨0, h⟩) := by
  rw [accAt]

/-- A point that opens a contraction leaves the zero block plus its block product. -/
theorem scratch_A (c : Dev nD) (t : Fin cfg0.N) (h0 : t.val % 8 = 0) (h1 : ¬t.val % 8 = 7) :
    (outsAt0 m c t.val t.isLt).2 = k0_pay2 (k0_pay1 (F := F)) (iblk m c 0 t) (iblk m c 1 t) := by
  rw [outsAt0_A m c t h0 h1, acc_A]

/-- A middle point adds its block product to what the point before left. -/
theorem scratch_B (c : Dev nD) (t : Fin cfg0.N) (h0 : ¬t.val % 8 = 0) (h1 : ¬t.val % 8 = 7) :
    (outsAt0 m c t.val t.isLt).2
      = k0_pay2 (outsAt0 m c (t.val - 1) (Nat.lt_of_le_of_lt (Nat.sub_le _ _) t.isLt)).2 (iblk m c 0 t) (iblk m c 1 t) := by
  rw [outsAt0_B m c t h0 h1, acc_B]

/-- So does the point that closes a contraction, -/
theorem scratch_C (c : Dev nD) (t : Fin cfg0.N) (h0 : ¬t.val % 8 = 0) (h1 : t.val % 8 = 7) :
    (outsAt0 m c t.val t.isLt).2
      = k0_pay2 (outsAt0 m c (t.val - 1) (Nat.lt_of_le_of_lt (Nat.sub_le _ _) t.isLt)).2 (iblk m c 0 t) (iblk m c 1 t) := by
  rw [outsAt0_C m c t h0 h1, acc_C]

/-- which also stores the finished accumulator plus the bias row into the output block. -/
theorem output_C (c : Dev nD) (t : Fin cfg0.N) (h0 : ¬t.val % 8 = 0) (h1 : t.val % 8 = 7) :
    (outsAt0 m c t.val t.isLt).1
      = k0_pay3 (k0_pay2 (outsAt0 m c (t.val - 1) (Nat.lt_of_le_of_lt (Nat.sub_le _ _) t.isLt)).2 (iblk m c 0 t) (iblk m c 1 t)) (iblk m c 2 t) := by
  rw [outsAt0_C m c t h0 h1, out_C, acc_C]

/-- What the scratch holds after each point is the running block product — by induction on the point. -/
theorem scratch_eq (c : Dev nD) (n : ℕ) : ∀ h : n < cfg0.N, (outsAt0 m c n h).2 = accAt m c n h := by
  induction n with
  | zero =>
    intro h
    rw [accAt_zero m c h]
    exact scratch_A m c ⟨0, h⟩ (Nat.zero_mod _) (by dsimp only; omega)
  | succ n ih =>
    intro h
    by_cases h0 : (n + 1) % 8 = 0
    · rw [accAt_open m c n h h0]
      exact scratch_A m c ⟨n + 1, h⟩ h0 (by dsimp only; omega)
    · rw [accAt_step m c n h h0, ← ih (Nat.lt_of_succ_lt h)]
      by_cases h1 : (n + 1) % 8 = 7
      · exact scratch_C m c ⟨n + 1, h⟩ h0 h1
      · exact scratch_B m c ⟨n + 1, h⟩ h0 h1

/-- At the last step of a contraction the output block is the finished accumulator plus the bias row. -/
theorem out_eq (c : Dev nD) (t : Fin cfg0.N) (h1 : t.val % 8 = 7) :
    (outsAt0 m c t.val t.isLt).1 = k0_pay3 (accAt m c t.val t.isLt) (iblk m c 2 t) := by
  have h0 : ¬t.val % 8 = 0 := by omega
  rw [output_C m c t h0 h1, ← scratch_C m c t h0 h1, scratch_eq m c t.val t.isLt]

end Cert.KernelIdeal.Accum

end
-- ==== Proof.LoraLaw.lean ====
/-
  The law that joins the two programs, over the reals: a linear map with a low-rank correction folded into its
  weight, Σ_d x_d · (w_d + 2 · Σ_r a_r · b_{r,d}), is the base product plus twice the correction applied in
  two steps, Σ_d x_d · w_d + 2 · Σ_r (Σ_d x_d · b_{r,d}) · a_r.
-/
import Idealize.ShloMosaic.PureOps.Ideal.Laws
import Mathlib.Tactic.Ring

open Finset

namespace Cert.LoraLaw

/-- Position `j` of contraction block `u`: the contracted axis of extent 4096 is cut into 8 blocks of 512. -/
def dcol (u : Fin 8) (j : Fin 512) : Fin 4096 := ⟨u.val * 512 + j.val, by have := u.isLt; have := j.isLt; omega⟩

theorem dcol_val (u : Fin 8) (j : Fin 512) : (dcol u j).val = u.val * 512 + j.val := rfl

/-- Folding the rank-`R` update into the weight changes nothing: distribute `x_d` over the sum, pull the factor
    `2` and `a_r` out, and exchange the two finite sums. -/
theorem fold_real {D R : Type*} [Fintype D] [Fintype R] (x w : D → ℝ) (a : R → ℝ) (b : R → D → ℝ) :
    ∑ d, x d * (w d + 2 * ∑ r, a r * b r d) = ∑ d, x d * w d + 2 * ∑ r, (∑ d, x d * b r d) * a r := by
  simp only [mul_add, Finset.sum_add_distrib, Finset.mul_sum, Finset.sum_mul]
  congr 1
  rw [Finset.sum_comm]
  refine Finset.sum_congr rfl fun r _ => Finset.sum_congr rfl fun d _ => ?_
  ring

end Cert.LoraLaw
-- ==== Proof.Blocks.lean ====
/-
  Where each window's block sits in its array. Point `n` of the 4 × 4 × 8 grid (row-major) has row block n / 32,
  column block (n / 8) mod 4 and contraction step n mod 8. The left operand's block at that point is rows
  (n / 32)·2048 + p, columns (n mod 8)·512 + j of the [8192, 4096] array; the folded weight's block is rows
  ((n / 8) mod 4)·1024 + q, the same columns, of the [4096, 4096] array; the bias block is columns
  ((n / 8) mod 4)·1024 + q of the [1, 4096] row. The relations between the printed index maps and these
  quotients are decided once over the grid.
-/
import proofs.«140714_j74500502717012_2_alg».proof.Proof.Gen.KernelIdeal.Frame
import Idealize.ShloMosaic.Lib.Pipeline.Value
import Idealize.ShloMosaic.Lib.ValueIdx
import proofs.«140714_j74500502717012_2_alg».proof.Proof.LoraLaw

noncomputable section

open Idealize.ShloMosaic Idealize.ShloMosaic.TcCoe Idealize.SL.Sem Idealize.ShloMosaic.ValueIdx

namespace Cert.KernelIdeal.Blocks

open Cert.KernelIdeal Cert.KernelIdeal.Gen Cert.LoraLaw

variable {F : FTy → Type} [FloatOps F]
variable (m : (ℓ : Loc nD τ sig) → Buf (Elt F) ℓ)

theorem lt128 (t : Fin cfg0.N) : t.val < 128 := lt_of_lt_of_eq t.isLt N_0

/-- The row of the [8192, 4096] operand that row `p` of point `n`'s block is. -/
def rowN (n : ℕ) (hn : n < 128) (p : Fin 2048) : Fin 8192 := ⟨n / 32 * 2048 + p.val, by have := p.isLt; omega⟩
/-- The output column (row of the folded weight) that column `q` of point `n`'s block is. -/
def colN (n : ℕ) (hn : n < 128) (q : Fin 1024) : Fin 4096 := ⟨n / 8 % 4 * 1024 + q.val, by have := q.isLt; omega⟩
/-- The contraction step of point `n`. -/
def stepN (n : ℕ) : Fin 8 := ⟨n % 8, Nat.mod_lt _ (by decide)⟩

theorem idx0 : ∀ t : Fin cfg0.N, win0_0.index t 0 = t.val / 32 ∧ win0_0.index t 1 = t.val % 8 :=
  (by decide +kernel : ∀ t : Fin grid0.N, win0_0.index t 0 = t.val / 32 ∧ win0_0.index t 1 = t.val % 8)
theorem idx1 : ∀ t : Fin cfg0.N, win0_1.index t 0 = t.val / 8 % 4 ∧ win0_1.index t 1 = t.val % 8 :=
  (by decide +kernel : ∀ t : Fin grid0.N, win0_1.index t 0 = t.val / 8 % 4 ∧ win0_1.index t 1 = t.val % 8)
theorem idx2 : ∀ t : Fin cfg0.N, win0_2.index t 0 = 0 ∧ win0_2.index t 1 = t.val / 8 % 4 :=
  (by decide +kernel : ∀ t : Fin grid0.N, win0_2.index t 0 = 0 ∧ win0_2.index t 1 = t.val / 8 % 4)
theorem idx3 : ∀ t : Fin cfg0.N, win0_3.index t 0 = t.val / 32 ∧ win0_3.index t 1 = t.val / 8 % 4 :=
  (by decide +kernel : ∀ t : Fin grid0.N, win0_3.index t 0 = t.val / 32 ∧ win0_3.index t 1 = t.val / 8 % 4)

/-- The left operand's block at point `t`, entry (p, j). -/
theorem iblk0_apply (c : Dev nD) (t : Fin cfg0.N) (p : Fin 2048) (j : Fin 512) :
    (iblk m c 0 t : Vec F S2048x512 .bf16) (ix2 p j)
      = V m c main_v6 (ix2 (rowN t.val (lt128 t) p) (dcol (stepN t.val) j)) := by
  have hi := idx0 t
  unfold iblk
  rw [View.read_apply]
  show V m c main_v6 _ = V m c main_v6 _
  congr 1
  funext a
  apply Fin.ext
  match a with
  | ⟨0, _⟩ => show win0_0.index t 0 * 2048 + 1 * p.val = t.val / 32 * 2048 + p.val; rw [hi.1]; omega
  | ⟨1, _⟩ => show win0_0.index t 1 * 512 + 1 * j.val = t.val % 8 * 512 + j.val; rw [hi.2]; omega

/-- The folded weight's block at point `t`, entry (q, j). -/
theorem iblk1_apply (c : Dev nD) (t : Fin cfg0.N) (q : Fin 1024) (j : Fin 512) :
    (iblk m c 1 t : Vec F S1024x512 .bf16) (ix2 q j)
      = V m c main_v5 (ix2 (colN t.val (lt128 t) q) (dcol (stepN t.val) j)) := by
  have hi := idx1 t
  unfold iblk
  rw [View.read_apply]
  show V m c main_v5 _ = V m c main_v5 _
  congr 1
  funext a
  apply Fin.ext
  match a with
  | ⟨0, _⟩ => show win0_1.index t 0 * 1024 + 1 * q.val = t.val / 8 % 4 * 1024 + q.val; rw [hi.1]; omega
  | ⟨1, _⟩ => show win0_1.index t 1 * 512 + 1 * j.val = t.val % 8 * 512 + j.val; rw [hi.2]; omega

/-- The bias block at point `t`, entry (0, q). -/
theorem iblk2_apply (c : Dev nD) (t : Fin cfg0.N) (q : Fin 1024) :
    (iblk m c 2 t : Vec F S1x1024 .f32) (ix2 (0 : Fin 1) q)
      = V m c main_v7 (ix2 (0 : Fin 1) (colN t.val (lt128 t) q)) := by
  have hi := idx2 t
  unfold iblk
  rw [View.read_apply]
  show V m c main_v7 _ = V m c main_v7 _
  congr 1
  funext a
  apply Fin.ext
  match a with
  | ⟨0, _⟩ => show win0_2.index t 0 * 1 + 1 * 0 = 0; rw [hi.1]
  | ⟨1, _⟩ => show win0_2.index t 1 * 1024 + 1 * q.val = t.val / 8 % 4 * 1024 + q.val; rw [hi.2]; omega

end Cert.KernelIdeal.Blocks

end
-- ==== Proof.Payloads.lean ====
/- The three values the matmul body stores, read at one element, at the ideal values:
   the zero block, one contraction block's partial products added to the running block, and the
   bias row added to every row of the finished block. -/
import proofs.«140714_j74500502717012_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.SL.Sem Idealize.ShloMosaic.ValueIdx

/-- The block the first contraction step starts from is zero everywhere. -/
theorem pay1_apply (p : Fin 2048) (q : Fin 1024) : Gen.k0_pay1 (F := Ideal) (ix2 p q) = 0 := by
  unfold Gen.k0_pay1
  rw [shapeCast_self]
  exact Ideal.ofBits_zero_f32

/-- The contraction's one axis, of extent 512, on the left operand: its column. -/
theorem lhs0 (i : S2048x1024.Idx) (k : dot_S2048x512_S1024x512_S2048x1024_1_1_0_0_n_n.contr.Idx) :
    (dot_S2048x512_S1024x512_S2048x1024_1_1_0_0_n_n.lhsIdx i k 0).val = (i 0).val := by
  unfold DotDims.lhsIdx
  rw [dif_neg (show ¬(0 : Fin S2048x512.rank) ∈ dot_S2048x512_S1024x512_S2048x1024_1_1_0_0_n_n.lhsBatch by decide), dif_pos (show (0 : Fin S2048x512.rank) ∈ dot_S2048x512_S1024x512_S2048x1024_1_1_0_0_n_n.lhsNonContracting by decide)]
  rfl
theorem lhs1 (i : S2048x1024.Idx) (k : dot_S2048x512_S1024x512_S2048x1024_1_1_0_0_n_n.contr.Idx) :
    (dot_S2048x512_S1024x512_S2048x1024_1_1_0_0_n_n.lhsIdx i k 1).val = (k ⟨0, by decide⟩).val :=
  dot_S2048x512_S1024x512_S2048x1024_1_1_0_0_n_n.lhsIdx_val_of_single rfl i k
theorem rhs0 (i : S2048x1024.Idx) (k : dot_S2048x512_S1024x512_S2048x1024_1_1_0_0_n_n.contr.Idx) :
    (dot_S2048x512_S1024x512_S2048x1024_1_1_0_0_n_n.rhsIdx i k 0).val = (i 1).val := by
  unfold DotDims.rhsIdx
  rw [dif_neg (show ¬(0 : Fin S1024x512.rank) ∈ dot_S2048x512_S1024x512_S2048x1024_1_1_0_0_n_n.rhsBatch by decide), dif_pos (show (0 : Fin S1024x512.rank) ∈ dot_S2048x512_S1024x512_S2048x1024_1_1_0_0_n_n.rhsNonContracting by decide)]
  rfl
theorem rhs1 (i : S2048x1024.Idx) (k : dot_S2048x512_S1024x512_S2048x1024_1_1_0_0_n_n.contr.Idx) :
    (dot_S2048x512_S1024x512_S2048x1024_1_1_0_0_n_n.rhsIdx i k 1).val = (k ⟨0, by decide⟩).val :=
  dot_S2048x512_S1024x512_S2048x1024_1_1_0_0_n_n.rhsIdx_val_of_single rfl i k

/-- The block product into a zero accumulator, at (p, q): the sum over the 512 columns of the left block's row p
    times the right block's row q (both operands are contracted along their second axis). -/
theorem matmul_block_apply (x0 : FVec Ideal S2048x512 .bf16) (x1 : FVec Ideal S1024x512 .bf16) (p : Fin 2048) (q : Fin 1024) :
    matmul dot_S2048x512_S1024x512_S2048x1024_1_1_0_0_n_n none x0 x1 (constant (F := Ideal) S2048x1024 .f32 0x00000000#32) (ix2 p q)
      = ∑ j : Fin 512, x0 (ix2 p j) * x1 (ix2 q j) := by
  simp only [matmul]
  rw [Ideal.matmul_constant_zero_apply, ← Equiv.sum_comp (ValueIdx.contrEquiv1 dot_S2048x512_S1024x512_S2048x1024_1_1_0_0_n_n 512 rfl rfl).symm]
  refine Finset.sum_congr rfl fun k _ => ?_
  have hk := ValueIdx.contrEquiv1_symm_val dot_S2048x512_S1024x512_S2048x1024_1_1_0_0_n_n 512 rfl rfl k
  have el : dot_S2048x512_S1024x512_S2048x1024_1_1_0_0_n_n.lhsIdx (ix2 p q) ((ValueIdx.contrEquiv1 dot_S2048x512_S1024x512_S2048x1024_1_1_0_0_n_n 512 rfl rfl).symm k) = ix2 p k := funext fun a => Fin.ext (by
    match a with
    | ⟨0, _⟩ => exact lhs0 _ _
    | ⟨1, _⟩ => exact (lhs1 _ _).trans hk)
  have er : dot_S2048x512_S1024x512_S2048x1024_1_1_0_0_n_n.rhsIdx (ix2 p q) ((ValueIdx.contrEquiv1 dot_S2048x512_S1024x512_S2048x1024_1_1_0_0_n_n 512 rfl rfl).symm k) = ix2 q k := funext fun a => Fin.ext (by
    match a with
    | ⟨0, _⟩ => exact rhs0 _ _
    | ⟨1, _⟩ => exact (rhs1 _ _).trans hk)
  rw [el, er]

/-- One contraction step: the running block plus the block product. -/
theorem pay2_apply (acc : Vec Ideal S2048x1024 .f32) (x0 : Vec Ideal S2048x512 .bf16) (x1 : Vec Ideal S1024x512 .bf16)
    (p : Fin 2048) (q : Fin 1024) :
    Gen.k0_pay2 acc x0 x1 (ix2 p q) = acc (ix2 p q) + ∑ j : Fin 512, x0 (ix2 p j) * x1 (ix2 q j) := by
  unfold Gen.k0_pay2
  rw [shapeCast_self, shapeCast_self, shapeCast_self, addf_apply, matmul_block_apply]

/-- The last step: the bias row added to every row of the block. -/
theorem pay3_apply (acc : Vec Ideal S2048x1024 .f32) (bb : Vec Ideal S1x1024 .f32) (p : Fin 2048) (q : Fin 1024) :
    Gen.k0_pay3 acc bb (ix2 p q) = acc (ix2 p q) + bb (ix2 (0 : Fin 1) q) := by
  unfold Gen.k0_pay3
  rw [shapeCast_self, addf_apply, broadcastTo_1b_ab_apply]

end Cert.KernelIdeal.Pay

end
-- ==== Proof.ResultDef.lean ====
/-
  The idealized kernel's result, stated. With X the [8192, 4096] left operand, Wf the folded [4096, 4096] weight and
  bias the [1, 4096] row as the region finds them: one block of the contraction is 512 products; the array after the
  region holds at (r, o) the eight blocks' sum plus bias entry o; and the program's result is that array re-laid as
  [4, 2048, 4096].
-/
import proofs.«140714_j74500502717012_2_alg».proof.Proof.Gen.KernelIdeal.Frame
import proofs.«140714_j74500502717012_2_alg».proof.Proof.LoraLaw
import Idealize.ShloMosaic.Lib.ValueIdx

noncomputable section

open Idealize.ShloMosaic Idealize.ShloMosaic.TcCoe Idealize.SL.Sem Idealize.ShloMosaic.ValueIdx

namespace Cert.KernelIdeal.Result

open Cert.KernelIdeal Cert.KernelIdeal.Gen Cert.LoraLaw

variable (m : (ℓ : Loc nD τ sig) → Buf (Elt Ideal) ℓ)

/-- One block of 512 products of the contraction, for output entry (row r, column o). -/
def bp (X : S8192x4096.Idx → EReal) (Wf : S4096x4096.Idx → EReal) (r : Fin 8192) (o : Fin 4096) (u : Fin 8) : EReal :=
  ∑ j : Fin 512, X (ix2 r (dcol u j)) * Wf (ix2 o (dcol u j))

/-- The [8192, 4096] array after the region, entry by entry, from the arrays the region found. -/
def Gout (c : Dev nD) : S8192x4096.Idx → EReal := fun i =>
  (∑ u : Fin 8, bp (V m c main_v6) (V m c main_v5) (i 0) (i 1) u) + V m c main_v7 (ix2 (0 : Fin 1) (i 1))

theorem Gout_apply (c : Dev nD) (r : Fin 8192) (o : Fin 4096) :
    Gout m c (ix2 r o) = (∑ u : Fin 8, bp (V m c main_v6) (V m c main_v5) r o u) + V m c main_v7 (ix2 (0 : Fin 1) o) := rfl

/-- The program's result: that array re-laid as [4, 2048, 4096]. -/
def Kres (c : Dev nD) : S4x2048x4096.Idx → EReal :=
  shapeCast S4x2048x4096 (Gout m c) shapeCasts_S8192x4096_S4x2048x4096

end Cert.KernelIdeal.Result

end
-- ==== Proof.AccumValue.lean ====
/-
  The accumulator, entry by entry, at the exact instance. With X the [8192, 4096] left operand and Wf the folded
  [4096, 4096] weight as the region finds them, the accumulator after point `n` holds at (p, q) the partial
  contraction Σ_{u ≤ n mod 8} Σ_j X[row, u·512 + j] · Wf[col, u·512 + j], with row = (n / 32)·2048 + p and
  col = ((n / 8) mod 4)·1024 + q: the zero block contributes nothing, and each step adds its own block of 512
  products. At n ≡ 7 (mod 8) every block is in, and the output block is that sum plus the bias entry.
-/
import proofs.«140714_j74500502717012_2_alg».proof.Proof.Accum
import proofs.«140714_j74500502717012_2_alg».proof.Proof.Blocks
import proofs.«140714_j74500502717012_2_alg».proof.Proof.Payloads
import proofs.«140714_j74500502717012_2_alg».proof.Proof.ResultDef

noncomputable section

open Idealize.ShloMosaic Idealize.ShloMosaic.TcCoe Idealize.SL.Sem Idealize.ShloMosaic.ValueIdx

namespace Cert.KernelIdeal.AccumValue

open Cert.KernelIdeal Cert.KernelIdeal.Gen Cert.KernelIdeal.Accum Cert.KernelIdeal.Blocks Cert.KernelIdeal.Pay Cert.LoraLaw Cert.KernelIdeal.Result

/-! ## Sums over the contraction steps taken so far -/

section sums
variable {M : Type*} [AddCommMonoid M]

theorem sum_le_zero (f : Fin 8 → M) : (∑ u : Fin 8, if u.val ≤ 0 then f u else 0) = f 0 := by
  have e : ∀ u : Fin 8, (if u.val ≤ 0 then f u else 0) = (if u = 0 then f u else 0) := by
    intro u
    by_cases h : u = 0
    · subst h; simp
    · have h' : ¬u.val ≤ 0 := fun hh => h (Fin.ext (Nat.le_zero.mp hh))
      rw [if_neg h', if_neg h]
  simp only [e, Finset.sum_ite_eq', Finset.mem_univ, if_true]

theorem sum_le_succ (f : Fin 8 → M) (k : ℕ) (hk : k + 1 < 8) :
    (∑ u : Fin 8, if u.val ≤ k + 1 then f u else 0) = (∑ u : Fin 8, if u.val ≤ k then f u else 0) + f ⟨k + 1, hk⟩ := by
  have e : ∀ u : Fin 8, (if u.val ≤ k + 1 then f u else 0)
      = (if u.val ≤ k then f u else 0) + (if u = ⟨k + 1, hk⟩ then f u else 0) := by
    intro u
    by_cases h1 : u.val ≤ k
    · have h2 : u ≠ ⟨k + 1, hk⟩ := fun h => by rw [h] at h1; simp at h1
      rw [if_pos h1, if_pos (by omega), if_neg h2, add_zero]
    · by_cases h2 : u = ⟨k + 1, hk⟩
      · subst h2; simp
      · have h3 : ¬u.val ≤ k + 1 := fun h => h2 (Fin.ext (by show u.val = k + 1; omega))
        rw [if_neg h1, if_neg h3, if_neg h2, add_zero]
  simp only [e, Finset.sum_add_distrib, Finset.sum_ite_eq', Finset.mem_univ, if_true]

theorem sum_le_seven (f : Fin 8 → M) : (∑ u : Fin 8, if u.val ≤ 7 then f u else 0) = ∑ u : Fin 8, f u :=
  Finset.sum_congr rfl fun u _ => if_pos (by have := u.isLt; omega)

end sums

variable (m : (ℓ : Loc nD τ sig) → Buf (Elt Ideal) ℓ)

/-- The two input blocks at point `t`, typed over their literal shapes. -/
abbrev xb (c : Dev nD) (t : Fin cfg0.N) : Vec Ideal S2048x512 .bf16 := iblk m c 0 t
abbrev wb (c : Dev nD) (t : Fin cfg0.N) : Vec Ideal S1024x512 .bf16 := iblk m c 1 t

/-- The block product the body adds at point `t` is block `t mod 8` of the contraction for that point's rows and columns. -/
theorem step_eq (c : Dev nD) (t : Fin cfg0.N) (p : Fin 2048) (q : Fin 1024) :
    (∑ j : Fin 512, xb m c t (ix2 p j) * wb m c t (ix2 q j))
      = bp (V m c main_v6) (V m c main_v5) (rowN t.val (lt128 t) p) (colN t.val (lt128 t) q) (stepN t.val) := by
  unfold bp
  refine Finset.sum_congr rfl fun j _ => ?_
  dsimp only [xb, wb]
  rw [iblk0_apply m c t p j, iblk1_apply m c t q j]

/-- The accumulator after point `n`, entry (p, q): the blocks of the contraction up to step `n mod 8`. -/
theorem accAt_apply (c : Dev nD) : ∀ (n : ℕ) (h : n < cfg0.N) (p : Fin 2048) (q : Fin 1024),
    accAt m c n h (ix2 p q) = ∑ u : Fin 8, if u.val ≤ n % 8 then
      bp (V m c main_v6) (V m c main_v5) (rowN n (lt_of_lt_of_eq h N_0) p) (colN n (lt_of_lt_of_eq h N_0) q) u else 0
  | 0, h, p, q => by
    rw [accAt_zero m c h]
    refine (pay2_apply (k0_pay1 (F := Ideal)) (iblk m c 0 ⟨0, h⟩) (iblk m c 1 ⟨0, h⟩) p q).trans ?_
    rw [pay1_apply, zero_add, step_eq m c ⟨0, h⟩ p q, show 0 % 8 = 0 from rfl, sum_le_zero]
    rfl
  | n + 1, h, p, q => by
    have hN : n + 1 < 128 := lt_of_lt_of_eq h N_0
    by_cases h0 : (n + 1) % 8 = 0
    · rw [accAt_open m c n h h0]
      refine (pay2_apply (k0_pay1 (F := Ideal)) (iblk m c 0 (⟨n + 1, h⟩ : Fin cfg0.N)) (iblk m c 1 (⟨n + 1, h⟩ : Fin cfg0.N)) p q).trans ?_
      rw [pay1_apply, zero_add, step_eq m c (⟨n + 1, h⟩ : Fin cfg0.N) p q, h0, sum_le_zero]
      have hs : stepN (⟨n + 1, h⟩ : Fin cfg0.N).val = (0 : Fin 8) := Fin.ext h0
      rw [hs]
    · rw [accAt_step m c n h h0]
      refine (pay2_apply (accAt m c n (Nat.lt_of_succ_lt h)) (iblk m c 0 (⟨n + 1, h⟩ : Fin cfg0.N)) (iblk m c 1 (⟨n + 1, h⟩ : Fin cfg0.N)) p q).trans ?_
      rw [accAt_apply c n (Nat.lt_of_succ_lt h) p q, step_eq m c (⟨n + 1, h⟩ : Fin cfg0.N) p q]
      have hk : (n + 1) % 8 = n % 8 + 1 := by omega
      have hk8 : n % 8 + 1 < 8 := by omega
      have hr : rowN (n + 1) hN p = rowN n (by omega) p := Fin.ext (by show (n + 1) / 32 * 2048 + p.val = n / 32 * 2048 + p.val; omega)
      have hc : colN (n + 1) hN q = colN n (by omega) q := Fin.ext (by show (n + 1) / 8 % 4 * 1024 + q.val = n / 8 % 4 * 1024 + q.val; omega)
      have hs : stepN (⟨n + 1, h⟩ : Fin cfg0.N).val = ⟨n % 8 + 1, hk8⟩ := Fin.ext hk
      rw [hk, sum_le_succ _ _ hk8, hs]
      show _ + bp _ _ (rowN (n + 1) hN p) (colN (n + 1) hN q) _ = _
      rw [hr, hc]

/-- The output block stored at the last step of a contraction, entry (p, q): the whole contraction plus the bias. -/
theorem out_apply (c : Dev nD) (t : Fin cfg0.N) (h1 : t.val % 8 = 7) (p : Fin 2048) (q : Fin 1024) :
    (outsAt0 m c t.val t.isLt).1 (ix2 p q)
      = (∑ u : Fin 8, bp (V m c main_v6) (V m c main_v5) (rowN t.val (lt128 t) p) (colN t.val (lt128 t) q) u)
        + V m c main_v7 (ix2 (0 : Fin 1) (colN t.val (lt128 t) q)) := by
  rw [out_eq m c t h1]
  refine (pay3_apply (accAt m c t.val t.isLt) (iblk m c 2 t) p q).trans ?_
  rw [accAt_apply m c t.val t.isLt p q, h1, sum_le_seven, iblk2_apply m c t q]

end Cert.KernelIdeal.AccumValue

end
-- ==== Proof.Cover.lean ====
/- Every element of the [8192, 4096] result lies in the block that some grid point writes back: the point of row
   block (i 0) / 2048 and column block (i 1) / 1024 at the last of the eight contraction steps. -/
import proofs.«140714_j74500502717012_2_alg».proof.Proof.Blocks
import Idealize.ShloMosaic.Lib.Pipeline.Value

noncomputable section

namespace Cert.KernelIdeal.Cover

open Cert.KernelIdeal Cert.KernelIdeal.Gen Idealize.ShloMosaic Idealize.ShloMosaic.TcCoe Idealize.SL.Sem

/-- An index of the result array is in point t's block iff each coordinate is in the block's range on its axis. -/
theorem mem_blk3 (t : Fin cfg0.N) (i : S8192x4096.Idx) :
    i ∈ ((cfg0.win 3).blk t).view.set
      ↔ ∀ a : Fin 2, win0_3.index t a * S2048x1024.size a ≤ (i a).val ∧ (i a).val < win0_3.index t a * S2048x1024.size a + S2048x1024.size a := by
  show i ∈ ((View.whole main_v8).slice (win0_3.rect t)).set ↔ _
  rw [View.set_slice_whole, Rect.mem_set_unit]
  exact Iff.rfl

/-- The result array is covered by the blocks written back. -/
theorem cover3 (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 128 := N_0
  obtain ⟨t, ht⟩ : ∃ t : Fin cfg0.N, t.val = (i 0).val / 2048 * 32 + (i 1).val / 1024 * 8 + 7 :=
    ⟨⟨(i 0).val / 2048 * 32 + (i 1).val / 1024 * 8 + 7, by rw [hN]; omega⟩, rfl⟩
  obtain ⟨e0, e1⟩ := Blocks.idx3 t
  refine ⟨t, (flush0_3 t).mpr (by omega), ?_⟩
  rw [mem_blk3]
  intro a
  match a with
  | ⟨0, _⟩ =>
    show win0_3.index t 0 * 2048 ≤ (i 0).val ∧ (i 0).val < win0_3.index t 0 * 2048 + 2048
    rw [e0]; omega
  | ⟨1, _⟩ =>
    show win0_3.index t 1 * 1024 ≤ (i 1).val ∧ (i 1).val < win0_3.index t 1 * 1024 + 1024
    rw [e1]; omega

end Cert.KernelIdeal.Cover

end
-- ==== Proof.Final.lean ====
/-
  From blocks to the array. The output is written back once per output block, at the last step of that block's
  contraction (points ≡ 7 mod 8), and the sixteen 2048 × 1024 blocks tile the [8192, 4096] array: entry (r, o) lies
  in the block of row block r / 2048 and column block o / 1024. What such a point writes back is its block of one
  whole-array function — the full contraction of row r of the left operand with row o of the folded weight, plus
  bias entry o — so that function is what the array holds after the region.
-/
import proofs.«140714_j74500502717012_2_alg».proof.Proof.AccumValue
import proofs.«140714_j74500502717012_2_alg».proof.Proof.Cover
import Idealize.ShloMosaic.Lib.StableHlo.Run
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Accum Cert.KernelIdeal.Blocks Cert.KernelIdeal.AccumValue Cert.LoraLaw Cert.KernelIdeal.Result

variable (m : (ℓ : Loc nD τ sig) → Buf (Elt Ideal) ℓ) (ρ : Dev nD → PrngReg)

/-- What a writing point writes back is its block of the whole-array function. -/
theorem flushed_eq (c : Dev nD) (t : Fin cfg0.N) (hf : (cfg0.win 3).flush t = true) :
    (dats m 0 c).flushed 3 t = ((cfg0.win 3).blk t).view.read (Elt Ideal) (Gout m c) := by
  have h1 : t.val % 8 = 7 := (flush0_3 t).mp hf
  have hi := idx3 t
  show (cfg0.win 3).cut (grid0.coords t) ((dats m 0 c).after 3 t) = _
  rw [after0_3]
  funext y
  obtain ⟨p, q, rfl⟩ : ∃ (p : Fin 2048) (q : Fin 1024), y = ix2 p q := ⟨y 0, y 1, eq_ix2 y⟩
  rw [View.read_apply]
  have he : ((cfg0.win 3).blk t).view.emb (ix2 p q) = ix2 (rowN t.val (lt128 t) p) (colN t.val (lt128 t) q) := by
    funext a
    apply Fin.ext
    match a with
    | ⟨0, _⟩ => show win0_3.index t 0 * 2048 + 1 * p.val = t.val / 32 * 2048 + p.val; rw [hi.1]; omega
    | ⟨1, _⟩ => show win0_3.index t 1 * 1024 + 1 * q.val = t.val / 8 % 4 * 1024 + q.val; rw [hi.2]; omega
  rw [he, Gout_apply]
  exact out_apply m c t h1 p q

/-- The array after the region: every entry is covered by the write-back of its block. -/
theorem final (c : Dev nD) : (dats m 0 c).arrAt 3 cfg0.N = Gout m c :=
  (dats m 0 c).arrAt_eq_of_cover 3 (Gout m c) (flushed_eq m c) Cert.KernelIdeal.Cover.cover3

end Cert.KernelIdeal.Final

end
-- ==== Proof.KernelRun.lean ====
/- The idealized kernel's run, read: the one host operation after the region re-lays the region's final
   [8192, 4096] array as [4, 2048, 4096]; so once that array is known, every execution ends with the result at
   that array re-laid and the five arguments unchanged. -/
import proofs.«140714_j74500502717012_2_alg».proof.Proof.ResultDef
import proofs.«140714_j74500502717012_2_alg».proof.Proof.Gen.KernelIdeal.Frame
import Idealize.ShloMosaic.Lib.StableHlo.Run
import Idealize.ShloMosaic.Lib.Pipeline.Value

noncomputable section

namespace Cert.KernelIdeal.KRun

open Cert.KernelIdeal Cert.KernelIdeal.Gen Cert.KernelIdeal.Result Idealize.ShloMosaic Idealize.ShloMosaic.TcCoe Idealize.SL.Sem Idealize.ShloMosaic.StableHlo

variable (m : (ℓ : Loc nD τ sig) → Buf (Elt Ideal) ℓ) (ρ : Dev nD → PrngReg)

/-- The result buffer after the host operation that follows the region: the region's final array, re-laid. -/
theorem tail_eq (c : Dev nD) (hfinal : (Gen.dats m 0 c).arrAt 3 cfg0.N = Gout m c) :
    Pipeline.afterTail₀ cfgs (Gen.dats m) 0 (Gen.V0 m) [Gen.hostOps1] c main_v9 = Kres m c := by
  unfold Pipeline.afterTail₀
  show StableHlo.after Gen.hostOps1 _ (Proc.devRef .tc main_v9) = _
  after_results
  have hw : Pipeline.withArrays (cfgs 0).spec c (V0 m c) (fun w => (dats m 0 c).arrAt w (cfgs 0).N) (Proc.devRef .tc main_v8) = Gout m c :=
    (Pipeline.withArrays_arr spec0 launch0.win.arr_inj c _ _ 3).trans hfinal
  rw [hw]
  rfl

/-- Every execution of the idealized kernel ends with the result at the final array re-laid and the arguments unchanged. -/
theorem run_of_final (hfinal : ∀ c, (Gen.dats m 0 c).arrAt 3 cfg0.N = Gout m c) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v9) = Kres m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run defs _ _).mono (fun _ h c => ⟨((h c).2 main_v9 (Pipeline.mem_restRefs_of main_v9 (by decide) (by decide))).trans (tail_eq m c (hfinal c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KRun

end
-- ==== Proof.HostPrefix.lean ====
/- The arrays the host operations before the region leave for its windows, read at one element, at the
   ideal values: x as 8192 rows of 4096; the effective weight W + 2 · (A · B); the bias as one row. -/
import proofs.«140714_j74500502717012_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Prefix

open Cert.KernelIdeal Cert.KernelIdeal.Gen Idealize.ShloMosaic Idealize.ShloMosaic.TcCoe Idealize.SL.Sem Idealize.ShloMosaic.StableHlo Idealize.ShloMosaic.ValueIdx

/-! ## The low-rank product A · B at an element -/

theorem lhs0 (i : S4096x4096.Idx) (k : dot_S4096x16_S16x4096_S4096x4096_1_0_0_1_n_n.contr.Idx) :
    (dot_S4096x16_S16x4096_S4096x4096_1_0_0_1_n_n.lhsIdx i k 0).val = (i 0).val := by
  unfold DotDims.lhsIdx
  rw [dif_neg (show ¬(0 : Fin S4096x16.rank) ∈ dot_S4096x16_S16x4096_S4096x4096_1_0_0_1_n_n.lhsBatch by decide), dif_pos (show (0 : Fin S4096x16.rank) ∈ dot_S4096x16_S16x4096_S4096x4096_1_0_0_1_n_n.lhsNonContracting by decide)]
  rfl
theorem lhs1 (i : S4096x4096.Idx) (k : dot_S4096x16_S16x4096_S4096x4096_1_0_0_1_n_n.contr.Idx) :
    (dot_S4096x16_S16x4096_S4096x4096_1_0_0_1_n_n.lhsIdx i k 1).val = (k ⟨0, by decide⟩).val :=
  dot_S4096x16_S16x4096_S4096x4096_1_0_0_1_n_n.lhsIdx_val_of_single rfl i k
theorem rhs0 (i : S4096x4096.Idx) (k : dot_S4096x16_S16x4096_S4096x4096_1_0_0_1_n_n.contr.Idx) :
    (dot_S4096x16_S16x4096_S4096x4096_1_0_0_1_n_n.rhsIdx i k 0).val = (k ⟨0, by decide⟩).val :=
  dot_S4096x16_S16x4096_S4096x4096_1_0_0_1_n_n.rhsIdx_val_of_single rfl i k
theorem rhs1 (i : S4096x4096.Idx) (k : dot_S4096x16_S16x4096_S4096x4096_1_0_0_1_n_n.contr.Idx) :
    (dot_S4096x16_S16x4096_S4096x4096_1_0_0_1_n_n.rhsIdx i k 1).val = (i 1).val := by
  unfold DotDims.rhsIdx
  rw [dif_neg (show ¬(1 : Fin S16x4096.rank) ∈ dot_S4096x16_S16x4096_S4096x4096_1_0_0_1_n_n.rhsBatch by decide), dif_pos (show (1 : Fin S16x4096.rank) ∈ dot_S4096x16_S16x4096_S4096x4096_1_0_0_1_n_n.rhsNonContracting by decide)]
  rfl

/-- The host's product of A : [4096, 16] with B : [16, 4096] at (o, d) is the sum over the rank's 16 coordinates. -/
theorem lowRank_apply (A : FVec Ideal S4096x16 .f32) (B : FVec Ideal S16x4096 .f32) (o d : Fin 4096) :
    Host.dotGeneral dot_S4096x16_S16x4096_S4096x4096_1_0_0_1_n_n none A B (ix2 o d) = ∑ r : Fin 16, A (ix2 o r) * B (ix2 r d) := by
  simp only [Host.dotGeneral]
  rw [Ideal.dotGeneral_apply, ← Equiv.sum_comp (ValueIdx.contrEquiv1 dot_S4096x16_S16x4096_S4096x4096_1_0_0_1_n_n 16 rfl rfl).symm]
  refine Finset.sum_congr rfl fun k _ => ?_
  have hk := ValueIdx.contrEquiv1_symm_val dot_S4096x16_S16x4096_S4096x4096_1_0_0_1_n_n 16 rfl rfl k
  have el : dot_S4096x16_S16x4096_S4096x4096_1_0_0_1_n_n.lhsIdx (ix2 o d) ((ValueIdx.contrEquiv1 dot_S4096x16_S16x4096_S4096x4096_1_0_0_1_n_n 16 rfl rfl).symm k) = ix2 o k := funext fun a => Fin.ext (by
    match a with
    | ⟨0, _⟩ => exact lhs0 _ _
    | ⟨1, _⟩ => exact (lhs1 _ _).trans hk)
  have er : dot_S4096x16_S16x4096_S4096x4096_1_0_0_1_n_n.rhsIdx (ix2 o d) ((ValueIdx.contrEquiv1 dot_S4096x16_S16x4096_S4096x4096_1_0_0_1_n_n 16 rfl rfl).symm k) = ix2 k d := funext fun a => Fin.ext (by
    match a with
    | ⟨0, _⟩ => exact (rhs0 _ _).trans hk
    | ⟨1, _⟩ => exact rhs1 _ _)
  rw [el, er]

/-! ## The three arrays the region's windows stage -/

variable (m : (ℓ : Loc nD τ sig) → Buf (Elt Ideal) ℓ) (c : Dev nD)

/-- The five argument arrays on core c, as arrays of extended reals: x, W, b, A, B. -/
abbrev argX : S4x2048x4096.Idx → EReal := m ((c : Thread nD τ).loc main_arg0)
abbrev argW : S4096x4096.Idx → EReal := m ((c : Thread nD τ).loc main_arg1)
abbrev argb : S4096.Idx → EReal := m ((c : Thread nD τ).loc main_arg2)
abbrev argA : S4096x16.Idx → EReal := m ((c : Thread nD τ).loc main_arg3)
abbrev argB : S16x4096.Idx → EReal := m ((c : Thread nD τ).loc main_arg4)

/-- x as [8192, 4096], in the operand format of the block product. -/
theorem V_v6_eq :
    @Eq (S8192x4096.Idx → EReal) (Gen.V m c main_v6)
      (truncf (F := Ideal) (φ := .f32) .bf16 (shapeCast S8192x4096 (argX m c) shapeCasts_S4x2048x4096_S8192x4096) bitsLt_bf16_f32) := by
  show StableHlo.after Gen.hostOps0 (fun b => m (c, b)) (Proc.devRef .tc main_v6) = _
  after_results
  rfl

/-- The effective weight W + 2 · (A · B), in the operand format of the block product. -/
theorem V_v5_eq :
    @Eq (S4096x4096.Idx → EReal) (Gen.V m c main_v5)
      (truncf (F := Ideal) (φ := .f32) .bf16 (addf (F := Ideal) (s := S4096x4096) (φ := .f32) (argW m c)
          (mulf (F := Ideal) (φ := .f32) (broadcastInDim S4096x4096 ![] bcast_S_S4096x4096 (constant (F := Ideal) S_ .f32 0x40000000#32))
            (Host.dotGeneral (F := Ideal) (φ₁ := .f32) (φ₂ := .f32) dot_S4096x16_S16x4096_S4096x4096_1_0_0_1_n_n none (argA m c) (argB m c)))) bitsLt_bf16_f32) := by
  show StableHlo.after Gen.hostOps0 (fun b => m (c, b)) (Proc.devRef .tc main_v5) = _
  after_results

/-- The bias as a [1, 4096] row. -/
theorem V_v7_eq :
    @Eq (S1x4096.Idx → EReal) (Gen.V m c main_v7) (shapeCast S1x4096 (argb m c) shapeCasts_S4096_S1x4096) := by
  show StableHlo.after Gen.hostOps0 (fun b => m (c, b)) (Proc.devRef .tc main_v7) = _
  after_results
  rfl

/-- Row r of x as [8192, 4096] is row r % 2048 of batch r / 2048. -/
theorem V_v6_apply (r : Fin 8192) (d : Fin 4096) :
    Gen.V m c main_v6 (ix2 r d)
      = argX m c (ix3 (⟨r.val / 2048, by omega⟩ : Fin 4) (⟨r.val % 2048, by omega⟩ : Fin 2048) d) := by
  rw [V_v6_eq, truncf_apply]
  refine shapeCast_apply _ _ _ _ ?_
  rw [Shape.rowMajor_val_three, Shape.rowMajor_val_two]
  show (r.val / 2048 * 2048 + r.val % 2048) * 4096 + d.val = r.val * 4096 + d.val
  omega

/-- The same by batch and row: row bi · 2048 + s of the reshaped x is row s of batch bi. -/
theorem V_v6_apply_batch (bi : Fin 4) (s : Fin 2048) (d : Fin 4096) :
    Gen.V m c main_v6 (ix2 (⟨bi.val * 2048 + s.val, by omega⟩ : Fin 8192) d) = argX m c (ix3 bi s d) := by
  rw [V_v6_eq, truncf_apply]
  refine shapeCast_apply _ _ _ _ ?_
  rw [Shape.rowMajor_val_three, Shape.rowMajor_val_two]
  show (bi.val * 2048 + s.val) * 4096 + d.val = (bi.val * 2048 + s.val) * 4096 + d.val
  rfl

/-- The effective weight at (o, d). -/
theorem V_v5_apply (o d : Fin 4096) :
    Gen.V m c main_v5 (ix2 o d)
      = argW m c (ix2 o d) + Ideal.ofBits .f32 0x40000000#32 * ∑ r : Fin 16, argA m c (ix2 o r) * argB m c (ix2 r d) := by
  rw [V_v5_eq, truncf_apply, addf_apply, mulf_apply, lowRank_apply]
  rfl

/-- The bias row at o. -/
theorem V_v7_apply (o : Fin 4096) :
    Gen.V m c main_v7 (ix2 (0 : Fin 1) o) = argb m c (ix1 o) := by
  rw [V_v7_eq]
  exact shapeCast_a_1a_apply _ _ _ _

end Cert.KernelIdeal.Prefix

end
-- ==== Proof.Bridge.lean ====
import proofs.«140714_j74500502717012_2_alg».proof.Proof.LoraLaw

/-!
  The law that joins the two programs, over the extended reals.

  When every entry is (the image of) a real number, the blockwise contraction against the folded weight,
  `Σ_u Σ_j x_d · (w_d + 2 · Σ_r a_r · b_{r,d})` with `d = 512 u + j`, plus the bias, is the base product plus the bias
  plus twice the low-rank correction applied in two steps. The extended reals are not a ring (`⊤ + ⊥`), so the
  identity is transported from the reals: every entry is rewritten as a coercion, the coercions are pushed outward
  through products, sums and finite sums, and the real identity is applied under the one remaining coercion.
-/

noncomputable section

namespace Cert.Bridge

open Idealize.ShloMosaic Finset

/-- The f32 pattern `0x40000000` denotes the real `2`. -/
theorem ofBits_two : Ideal.ofBits .f32 0x40000000#32 = ((2 : ℝ) : EReal) := by
  simp [Ideal.ofBits, Ideal.ieee, -EReal.coe_mul]; norm_num

/-- The coercion of a finite sum of reals is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The contracted axis of extent 4096 is the disjoint union of 8 blocks of 512: `(u, j) ↦ 512 u + j` is a bijection. -/
def blockEquiv : Fin 8 × Fin 512 ≃ Fin 4096 where
  toFun p := Cert.LoraLaw.dcol p.1 p.2
  invFun d := (⟨d.val / 512, by have := d.isLt; omega⟩, ⟨d.val % 512, Nat.mod_lt _ (by norm_num)⟩)
  left_inv p := by
    rcases p with ⟨u, j⟩
    have hu := u.isLt
    have hj := j.isLt
    refine Prod.ext (Fin.ext ?_) (Fin.ext ?_)
    · show (u.val * 512 + j.val) / 512 = u.val
      omega
    · show (u.val * 512 + j.val) % 512 = j.val
      omega
  right_inv d := Fin.ext (by
    show d.val / 512 * 512 + d.val % 512 = d.val
    omega)

/-- A sum taken block by block is the sum over the whole axis. -/
theorem sum_blocks {M : Type*} [AddCommMonoid M] (f : Fin 4096 → M) :
    ∑ u : Fin 8, ∑ j : Fin 512, f (Cert.LoraLaw.dcol u j) = ∑ d : Fin 4096, f d := by
  rw [← Equiv.sum_comp blockEquiv f, Fintype.sum_prod_type]
  rfl

/-- The law over the extended reals, for entries that are all reals. -/
theorem lora_ereal (xs ws : Fin 4096 → EReal) (bo : EReal) (as : Fin 16 → EReal) (bs : Fin 16 → Fin 4096 → EReal)
    (hx : ∀ d, ∃ r : ℝ, xs d = (r : EReal)) (hw : ∀ d, ∃ r : ℝ, ws d = (r : EReal)) (hb : ∃ r : ℝ, bo = (r : EReal))
    (ha : ∀ r, ∃ v : ℝ, as r = (v : EReal)) (hbs : ∀ r d, ∃ v : ℝ, bs r d = (v : EReal)) :
    (∑ u : Fin 8, ∑ j : Fin 512, xs (Cert.LoraLaw.dcol u j)
        * (ws (Cert.LoraLaw.dcol u j) + Ideal.ofBits .f32 0x40000000#32 * ∑ r : Fin 16, as r * bs r (Cert.LoraLaw.dcol u j))) + bo
      = ((∑ d : Fin 4096, xs d * ws d) + bo)
        + Ideal.ofBits .f32 0x40000000#32 * ∑ r : Fin 16, (∑ d : Fin 4096, xs d * bs r d) * as r := by
  rw [sum_blocks (fun d => xs d * (ws d + Ideal.ofBits .f32 0x40000000#32 * ∑ r : Fin 16, as r * bs r d)), ofBits_two]
  choose x hx using hx
  choose w hw using hw
  obtain ⟨b0, rfl⟩ := hb
  choose a ha using ha
  choose b hb using hbs
  simp only [hx, hw, ha, hb, ← EReal.coe_mul, ← coe_sum, ← EReal.coe_add]
  refine congrArg Real.toEReal ?_
  rw [Cert.LoraLaw.fold_real]
  ring

end Cert.Bridge

end
-- ==== Proof.Finite.lean ====
import proofs.«140714_j74500502717012_2_alg».proof.Defs
import proofs.«140714_j74500502717012_2_alg».proof.Proof.Gen.Pre_finite_inputs
import Idealize.ShloMosaic.Lib.ReduceAll

/-!
  Finiteness of the inputs, from the precondition.

  The precondition is the conjunction of five statements, one per argument array `a`: the reduction by `and`, over all
  axes, of the elementwise comparison `|a| < +∞` is 1. At the ideal
  instance a float is an extended real, `|a|` is `max a (-a)` and the pattern `0x7F800000` is `⊤`; so an
  entry passing the comparison is neither `⊤` nor `⊥`, that is, it is (the image of) a real number.
-/

noncomputable section

namespace Cert.Finite

open Idealize.ShloMosaic Idealize.SL.Sem

/-- The result shape of a reduction over all axes has a single index. -/
instance : Subsingleton Cert.Pre_finite_inputs.S_.Idx := ⟨fun a b => funext fun d => d.elim0⟩

/-- An extended real whose absolute value `max x (-x)` compares below the f32 pattern of `+∞` is a real. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact ⟨r, rfl⟩
  | top => simp at h

/-- If the reduction by `and`, over all axes, of the comparisons `|a i| < +∞` is 1, every entry of `a` is a real. -/
theorem all_real {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf a) (broadcastInDim s ![] hb (constant (F := Ideal) Cert.Pre_finite_inputs.S_ .f32 0x7F800000#32)))
          (constantI Cert.Pre_finite_inputs.S_ 1 1#1) hr hu j = 1#1) :
    ∀ i, ∃ r : ℝ, a i = (r : EReal) :=
  fun i => real_of_abs_lt_inf (a i) (Host.reduce_andi_all _ _ hr hu _ e i)

/-- The precondition on five arbitrary arrays: if it is all ones, every entry of every array is a real. -/
theorem fn_finite [Cert.Pre_finite_inputs.Facts]
    (a0 : FVec Ideal Cert.Pre_finite_inputs.S4x2048x4096 .f32) (a1 : FVec Ideal Cert.Pre_finite_inputs.S4096x4096 .f32)
    (a2 : FVec Ideal Cert.Pre_finite_inputs.S4096 .f32) (a3 : FVec Ideal Cert.Pre_finite_inputs.S4096x16 .f32)
    (a4 : FVec Ideal Cert.Pre_finite_inputs.S16x4096 .f32)
    (h : Cert.Pre_finite_inputs.fn (F := Ideal) a0 a1 a2 a3 a4 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h (fun a => a.elim0)
  dsimp only [Cert.Pre_finite_inputs.fn, Cert.Pre_finite_inputs.fn_part1, Idealize.ShloMosaic.andi] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨all_real a0 _ _ _ _ h0', all_real a1 _ _ _ _ h1, all_real a2 _ _ _ _ h2, all_real a3 _ _ _ _ h3, all_real a4 _ _ _ _ h4⟩

/-- Under the kernel's precondition every entry of each of the five argument arrays, on every device, is a real. -/
theorem finite_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal)) :=
  fn_finite _ _ _ _ _ (h c)

end Cert.Finite

end
-- ==== Proof.KernelValue.lean ====
import proofs.«140714_j74500502717012_2_alg».proof.Proof.ResultDef
import proofs.«140714_j74500502717012_2_alg».proof.Proof.HostPrefix
import proofs.«140714_j74500502717012_2_alg».proof.Proof.Bridge
import proofs.«140714_j74500502717012_2_alg».proof.Proof.Finite

/-!
  The idealized kernel's result at one output coordinate, in terms of the five argument arrays.

  The result is the [8192, 4096] array after the region re-laid as [4, 2048, 4096]: its entry (bi, s, o) is the
  array's entry (2048 bi + s, o), that is, the eight blocks' sum of x[bi, s, d] · Weff[o, d] over the contracted axis
  plus b[o], with Weff[o, d] = W[o, d] + 2 · Σ_r A[o, r] · B[r, d]. When every input entry is a real number this is
  the reference's value (Σ_d x·W + b) + 2 · Σ_r (Σ_d x·B[r, ·]) · A[o, r].
-/

noncomputable section

open Idealize.ShloMosaic Idealize.ShloMosaic.TcCoe Idealize.SL.Sem Idealize.ShloMosaic.ValueIdx

namespace Cert.KernelIdeal.KValue

open Cert.KernelIdeal Cert.KernelIdeal.Gen Cert.KernelIdeal.Result Cert.KernelIdeal.Prefix Cert.LoraLaw

variable (m : (ℓ : Loc nD τ sig) → Buf (Elt Ideal) ℓ) (c : Dev nD)

/-- The re-laid result at (bi, s, o) is the [8192, 4096] array at row 2048 bi + s, column o: the two indices have the
    same row-major position. -/
theorem Kres_eq_Gout (bi : Fin 4) (s : Fin 2048) (o : Fin 4096) :
    Kres m c (ix3 bi s o) = Gout m c (ix2 (⟨bi.val * 2048 + s.val, by omega⟩ : Fin 8192) o) := by
  unfold Kres
  refine shapeCast_apply _ _ _ _ ?_
  rw [Shape.rowMajor_val_two, Shape.rowMajor_val_three]
  show (bi.val * 2048 + s.val) * 4096 + o.val = (bi.val * 2048 + s.val) * 4096 + o.val
  rfl

/-- The kernel's result at (bi, s, o) from the argument arrays: the blockwise contraction of row (bi, s) of x against
    row o of the effective weight, plus the bias entry o. -/
theorem Kres_apply (bi : Fin 4) (s : Fin 2048) (o : Fin 4096) :
    Kres m c (ix3 bi s o)
      = (∑ u : Fin 8, ∑ j : Fin 512, argX m c (ix3 bi s (dcol u j))
            * (argW m c (ix2 o (dcol u j))
                + Ideal.ofBits .f32 0x40000000#32 * ∑ r : Fin 16, argA m c (ix2 o r) * argB m c (ix2 r (dcol u j))))
          + argb m c (ix1 o) := by
  rw [Kres_eq_Gout, Gout_apply, V_v7_apply]
  congr 1
  refine Finset.sum_congr rfl fun u _ => ?_
  unfold bp
  refine Finset.sum_congr rfl fun j _ => ?_
  rw [V_v6_apply_batch, V_v5_apply]

/-- With every entry of the five argument arrays a real number, the kernel's result at (bi, s, o) is the reference's. -/
theorem Kres_eq_ref
    (hfin : (∀ i, ∃ r : ℝ, m ((c.tc : Thread nD τ).loc main_arg0) i = (r : EReal))
      ∧ (∀ i, ∃ r : ℝ, m ((c.tc : Thread nD τ).loc main_arg1) i = (r : EReal))
      ∧ (∀ i, ∃ r : ℝ, m ((c.tc : Thread nD τ).loc main_arg2) i = (r : EReal))
      ∧ (∀ i, ∃ r : ℝ, m ((c.tc : Thread nD τ).loc main_arg3) i = (r : EReal))
      ∧ (∀ i, ∃ r : ℝ, m ((c.tc : Thread nD τ).loc main_arg4) i = (r : EReal)))
    (bi : Fin 4) (s : Fin 2048) (o : Fin 4096) :
    Kres m c (ix3 bi s o)
      = ((∑ d : Fin 4096, argX m c (ix3 bi s d) * argW m c (ix2 o d)) + argb m c (ix1 o))
        + Ideal.ofBits .f32 0x40000000#32
          * ∑ r : Fin 16, (∑ d : Fin 4096, argX m c (ix3 bi s d) * argB m c (ix2 r d)) * argA m c (ix2 o r) := by
  obtain ⟨h0, h1, h2, h3, h4⟩ := hfin
  rw [Kres_apply]
  exact Cert.Bridge.lora_ereal (fun d => argX m c (ix3 bi s d)) (fun d => argW m c (ix2 o d)) (argb m c (ix1 o))
    (fun r => argA m c (ix2 o r)) (fun r d => argB m c (ix2 r d))
    (fun d => h0 _) (fun d => h1 _) (h2 _) (fun r => h3 _) (fun r d => h4 _)

end Cert.KernelIdeal.KValue

end
-- ==== Proof.RefSide.lean ====
import proofs.«140714_j74500502717012_2_alg».proof.Proof.Gen.ReferenceIdeal.Read
import Idealize.ShloMosaic.Lib.ValueIdx
import Idealize.ShloMosaic.PureOps.Ideal.Laws

/-!
  The reference, read at one output coordinate.

  The reference computes `(x · Wᵀ + b) + 2 · ((x · Bᵀ) · Aᵀ)`. At the ideal instance (floats are extended reals, each
  operation exact) its result at the coordinate `(bi, s, o)` is
  `(∑ d, x[bi,s,d] * W[o,d] + b[o]) + 2 * ∑ r, (∑ d, x[bi,s,d] * B[r,d]) * A[o,r]`.
-/

noncomputable section

namespace Cert.RefSide

open Cert.ReferenceIdeal Cert.ReferenceIdeal.Gen Idealize.ShloMosaic Idealize.ShloMosaic.TcCoe Idealize.SL.Sem Idealize.ShloMosaic.StableHlo

/-! ## The operand indices of each operation, by coordinates -/

theorem lidx_v0 (bi : Fin 4) (s : Fin 2048) (o : Fin 4096) (k : Fin 4096) :
    Read.lidx_main_v0 (ValueIdx.ix3 bi s o) k = ValueIdx.ix3 bi s k :=
  funext fun a => Fin.ext (by match a with | ⟨0, _⟩ => rfl | ⟨1, _⟩ => rfl | ⟨2, _⟩ => rfl)

theorem ridx_v0 (bi : Fin 4) (s : Fin 2048) (o : Fin 4096) (k : Fin 4096) :
    Read.ridx_main_v0 (ValueIdx.ix3 bi s o) k = ValueIdx.ix2 o k :=
  funext fun a => Fin.ext (by match a with | ⟨0, _⟩ => rfl | ⟨1, _⟩ => rfl)

theorem idx_v1_v2 (bi : Fin 4) (s : Fin 2048) (o : Fin 4096) :
    Read.idx_main_v1 (Read.idx_main_v2 (ValueIdx.ix3 bi s o)) = ValueIdx.ix1 o :=
  funext fun a => Fin.ext (by match a with | ⟨0, _⟩ => rfl)

theorem lidx_v5 (bi : Fin 4) (s : Fin 2048) (o : Fin 4096) (r : Fin 16) :
    Read.lidx_main_v5 (ValueIdx.ix3 bi s o) r = ValueIdx.ix3 bi s r :=
  funext fun a => Fin.ext (by match a with | ⟨0, _⟩ => rfl | ⟨1, _⟩ => rfl | ⟨2, _⟩ => rfl)

theorem ridx_v5 (bi : Fin 4) (s : Fin 2048) (o : Fin 4096) (r : Fin 16) :
    Read.ridx_main_v5 (ValueIdx.ix3 bi s o) r = ValueIdx.ix2 o r :=
  funext fun a => Fin.ext (by match a with | ⟨0, _⟩ => rfl | ⟨1, _⟩ => rfl)

theorem lidx_v4 (bi : Fin 4) (s : Fin 2048) (r : Fin 16) (d : Fin 4096) :
    Read.lidx_main_v4 (ValueIdx.ix3 bi s r) d = ValueIdx.ix3 bi s d :=
  funext fun a => Fin.ext (by match a with | ⟨0, _⟩ => rfl | ⟨1, _⟩ => rfl | ⟨2, _⟩ => rfl)

theorem ridx_v4 (bi : Fin 4) (s : Fin 2048) (r : Fin 16) (d : Fin 4096) :
    Read.ridx_main_v4 (ValueIdx.ix3 bi s r) d = ValueIdx.ix2 r d :=
  funext fun a => Fin.ext (by match a with | ⟨0, _⟩ => rfl | ⟨1, _⟩ => rfl)

/-! ## The reference at a coordinate -/

/-- The low-rank factor `x · Bᵀ` at a coordinate. -/
theorem v4_apply (x : FVec Ideal S4x2048x4096 .f32) (B : FVec Ideal S16x4096 .f32) (bi : Fin 4) (s : Fin 2048) (r : Fin 16) :
    Read.val_main_v4 (F := Ideal) x B (ValueIdx.ix3 bi s r) = ∑ d : Fin 4096, x (ValueIdx.ix3 bi s d) * B (ValueIdx.ix2 r d) := by
  rw [Read.val_main_v4_apply]
  refine Finset.sum_congr rfl fun d _ => ?_
  rw [lidx_v4, ridx_v4]

/-- The run's result term of the reference at the coordinate `(bi, s, o)`. -/
theorem ref_apply (x : FVec Ideal S4x2048x4096 .f32) (W : FVec Ideal S4096x4096 .f32) (b : FVec Ideal S4096 .f32)
    (A : FVec Ideal S4096x16 .f32) (B : FVec Ideal S16x4096 .f32) (bi : Fin 4) (s : Fin 2048) (o : Fin 4096) :
    (addf (addf (Host.dotGeneral dot_S4x2048x4096_S4096x4096_S4x2048x4096_2_1_01_0_n_n none x W) (broadcastInDim S4x2048x4096 ![0, 1, 2] bcast_S1x1x4096_S4x2048x4096_0_1_2 (broadcastInDim S1x1x4096 ![2] bcast_S4096_S1x1x4096_2 b))) (mulf (broadcastInDim S4x2048x4096 ![] bcast_S_S4x2048x4096 (constant (F := Ideal) S_ .f32 0x40000000#32)) (Host.dotGeneral dot_S4x2048x16_S4096x16_S4x2048x4096_2_1_01_0_n_n none (Host.dotGeneral dot_S4x2048x4096_S16x4096_S4x2048x16_2_1_01_0_n_n none x B) A)))
        (ValueIdx.ix3 bi s o)
      = ((∑ d : Fin 4096, x (ValueIdx.ix3 bi s d) * W (ValueIdx.ix2 o d)) + b (ValueIdx.ix1 o))
        + Ideal.ofBits .f32 0x40000000#32
          * (∑ r : Fin 16, (∑ d : Fin 4096, x (ValueIdx.ix3 bi s d) * B (ValueIdx.ix2 r d)) * A (ValueIdx.ix2 o r)) := by
  rw [Read.val_main_v8_eq, Read.val_main_v8_apply, Read.val_main_v3_apply, Read.val_main_v0_apply, Read.val_main_v2_apply,
    Read.val_main_v1_apply, Read.val_main_v7_apply, Read.val_main_v6_apply, Read.val_main_cst_apply, Read.val_main_v5_apply]
  simp only [lidx_v0, ridx_v0, idx_v1_v2, lidx_v5, ridx_v5, v4_apply, Ideal.addf_def, Ideal.mulf_def, Ideal.ofBits_def]

end Cert.RefSide

end
-- ==== Proof.Assemble.lean ====
import proofs.«140714_j74500502717012_2_alg».proof.Defs
import proofs.«140714_j74500502717012_2_alg».proof.Proof.Gen.Kernel
import proofs.«140714_j74500502717012_2_alg».proof.Proof.Gen.Kernel.Frame
import proofs.«140714_j74500502717012_2_alg».proof.Proof.Gen.KernelIdeal
import proofs.«140714_j74500502717012_2_alg».proof.Proof.Gen.KernelIdeal.Frame
import proofs.«140714_j74500502717012_2_alg».proof.Proof.Gen.ReferenceIdeal
import proofs.«140714_j74500502717012_2_alg».proof.Proof.Gen.ReferenceIdeal.Run
import proofs.«140714_j74500502717012_2_alg».proof.Proof.Gen.Pre_finite_inputs
import proofs.«140714_j74500502717012_2_alg».proof.Proof.KernelValue
import proofs.«140714_j74500502717012_2_alg».proof.Proof.RefSide
import proofs.«140714_j74500502717012_2_alg».proof.Proof.Finite

/-!
  The claims, assembled.

  The three frame claims are the generated frame runs (the reference's read off its generated run). The algebraic
  claim: from a run of the idealized kernel that ends with its result array equal to `Kres m c` (the hypothesis
  `hrun`), and the generated run of the reference, whose result is the composed term of its operations; with every
  input entry a real number (the precondition) the two arrays are equal entry by entry (`result_eq`).
-/

noncomputable section

open Idealize.ShloMosaic Idealize.ShloMosaic.TcCoe Idealize.SL.Sem

namespace Cert.Assemble

section Result

open Cert.ReferenceIdeal Cert.ReferenceIdeal.Gen Idealize.ShloMosaic.StableHlo

/-- With every input entry a real number, the reference's composed term at the kernel's argument arrays is the
    kernel's result array: equal at every coordinate (bi, s, o). -/
theorem result_eq (m : (ℓ : Loc Cert.KernelIdeal.nD Cert.KernelIdeal.τ Cert.KernelIdeal.sig) → Buf (Elt Ideal) ℓ)
    (c : Dev Cert.KernelIdeal.nD)
    (hfin : (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal))) :
    addf (addf (Host.dotGeneral (F := Ideal) (φ₁ := .f32) (φ₂ := .f32) dot_S4x2048x4096_S4096x4096_S4x2048x4096_2_1_01_0_n_n none (Cert.KernelIdeal.Prefix.argX m c) (Cert.KernelIdeal.Prefix.argW m c)) (broadcastInDim S4x2048x4096 ![0, 1, 2] bcast_S1x1x4096_S4x2048x4096_0_1_2 (broadcastInDim S1x1x4096 ![2] bcast_S4096_S1x1x4096_2 (Cert.KernelIdeal.Prefix.argb m c)))) (mulf (broadcastInDim S4x2048x4096 ![] bcast_S_S4x2048x4096 (constant (F := Ideal) S_ .f32 0x40000000#32)) (Host.dotGeneral (F := Ideal) (φ₁ := .f32) (φ₂ := .f32) dot_S4x2048x16_S4096x16_S4x2048x4096_2_1_01_0_n_n none (Host.dotGeneral (F := Ideal) (φ₁ := .f32) (φ₂ := .f32) dot_S4x2048x4096_S16x4096_S4x2048x16_2_1_01_0_n_n none (Cert.KernelIdeal.Prefix.argX m c) (Cert.KernelIdeal.Prefix.argB m c)) (Cert.KernelIdeal.Prefix.argA m c)))
      = Cert.KernelIdeal.Result.Kres m c := by
  funext i
  obtain ⟨bi, s, o, rfl⟩ : ∃ (bi : Fin 4) (s : Fin 2048) (o : Fin 4096), i = ValueIdx.ix3 bi s o :=
    ⟨i 0, i 1, i 2, ValueIdx.eq_ix3 i⟩
  rw [Cert.KernelIdeal.KValue.Kres_eq_ref m c hfin]
  exact Cert.RefSide.ref_apply _ _ _ _ _ bi s o

end Result

/-! ## The claims -/

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The algebraic claim, from a run of the idealized kernel ending with its result array at `Kres m c` and its
    arguments unchanged. -/
theorem algebraic_of
    (hrun : ∀ (m : (ℓ : Loc Cert.KernelIdeal.nD Cert.KernelIdeal.τ Cert.KernelIdeal.sig) → Buf (Elt Ideal) ℓ)
        (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
          r.2.mem ((c.tc : Thread Cert.KernelIdeal.nD Cert.KernelIdeal.τ).loc Cert.KernelIdeal.main_v9) = Cert.KernelIdeal.Result.Kres m c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))) :
    Cert.algebraic_KernelIdeal_ReferenceIdeal := by
  intro m ρ m' ρ' hpre hagree
  refine ⟨fun c => Cert.KernelIdeal.Result.Kres m c, hrun m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact result_eq m c (Cert.Finite.finite_of_pre m hpre c)

end Cert.Assemble

end
-- ==== Proof.lean ====
/-
  A linear layer with a rank-16 correction, two ways.

  The kernel folds the correction into the weight before multiplying: with x re-laid as [8192, 4096] it forms
  Weff[o, d] = W[o, d] + 2 · Σ_r A[o, r] · B[r, d] on the host, and a tiled matrix product (2048 × 1024 output blocks,
  the contracted axis in eight blocks of 512 accumulated in a scratch buffer across the last grid axis, the bias row
  added at the last block) computes out[m, o] = Σ_d x[m, d] · Weff[o, d] + b[o], re-laid as [4, 2048, 4096].
  The reference multiplies first and corrects afterwards:
  (Σ_d x[bi, s, d] · W[o, d] + b[o]) + 2 · Σ_r (Σ_d x[bi, s, d] · B[r, d]) · A[o, r].

  At the exact instance a float is an extended real and a change of float format is the identity, so the two results
  are finite sums of products of the same entries, arranged differently: distributing x[·, d] over the folded weight,
  pulling 2 and A[o, r] out of the inner sum and exchanging the two sums turns one into the other. Those steps hold
  for real numbers and fail at infinities, which is where the precondition — every input entry finite — is used.

  The modules: the law over the reals and its form on extended reals under finiteness (LoraLaw, Bridge); finiteness
  of every entry from the precondition (Finite); the reference's result entry by entry (RefSide); the kernel body's
  three control cases read back as values (Pieces), the accumulator's contents after each grid point by induction
  (Accum) and entry by entry (Payloads, Blocks, AccumValue); the blocks written back tile the array, so the array
  after the region is one function of the arrays the region found (Cover, Final, ResultDef), which the host
  operations before the region computed from the arguments (HostPrefix, KernelValue); the re-layout after the region
  and the run (KernelRun); the five claims (Assemble).
-/
import proofs.«140714_j74500502717012_2_alg».proof.Defs
import proofs.«140714_j74500502717012_2_alg».proof.Proof.Gen.Kernel
import proofs.«140714_j74500502717012_2_alg».proof.Proof.Gen.Kernel.Skeleton
import proofs.«140714_j74500502717012_2_alg».proof.Proof.Gen.Kernel.Launch
import proofs.«140714_j74500502717012_2_alg».proof.Proof.Gen.Kernel.Points
import proofs.«140714_j74500502717012_2_alg».proof.Proof.Gen.Kernel.Frame
import proofs.«140714_j74500502717012_2_alg».proof.Proof.Gen.KernelIdeal
import proofs.«140714_j74500502717012_2_alg».proof.Proof.Gen.KernelIdeal.Skeleton
import proofs.«140714_j74500502717012_2_alg».proof.Proof.Gen.KernelIdeal.Launch
import proofs.«140714_j74500502717012_2_alg».proof.Proof.Gen.KernelIdeal.Points
import proofs.«140714_j74500502717012_2_alg».proof.Proof.Gen.KernelIdeal.Frame
import proofs.«140714_j74500502717012_2_alg».proof.Proof.Gen.ReferenceIdeal
import proofs.«140714_j74500502717012_2_alg».proof.Proof.Gen.ReferenceIdeal.Run
import proofs.«140714_j74500502717012_2_alg».proof.Proof.Gen.ReferenceIdeal.Read
import proofs.«140714_j74500502717012_2_alg».proof.Proof.Gen.Pre_finite_inputs
import proofs.«140714_j74500502717012_2_alg».proof.Proof.Final
import proofs.«140714_j74500502717012_2_alg».proof.Proof.KernelRun
import proofs.«140714_j74500502717012_2_alg».proof.Proof.Assemble
import Idealize.ShloMosaic.Adequacy
import Idealize.ShloMosaic.Init

noncomputable section

namespace Cert.Proof

open Idealize.ShloMosaic Idealize.SL.Sem

/-- The five claims. The kernel's run with its result named comes from the generated run, the array after the region
    (every block written back is a block of one function of the arrays the region found) and the re-layout after it. -/
theorem claim : Cert.Claim :=
  ⟨Cert.Kernel.Gen.facts, Cert.KernelIdeal.Gen.facts, Cert.ReferenceIdeal.Gen.facts, Cert.Pre_finite_inputs.Gen.facts,
    Cert.Assemble.frame_p, Cert.Assemble.frame_pi, Cert.Assemble.frame_ri, Cert.Assemble.preserves,
    Cert.Assemble.algebraic_of fun m ρ =>
      Cert.KernelIdeal.KRun.run_of_final m ρ fun c => Cert.KernelIdeal.Final.final m c⟩

end Cert.Proof

end
